-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.Tile.lean ====
/-
  One grid point's arithmetic, read at an index on the extended reals.

  The body keeps a 1024×1024 tile of the result in its output block. At the first point of a run along the contraction
  axis it fills the tile with zeros; at every point it adds to the tile the product of the point's 1024×1024 block of the
  left matrix with its 1024×1024 block of the right matrix. At row `r`, column `n` of the tile that product is the sum
  over the 1024 contraction positions `k` of (left block at (r, k)) · (right block at (k, n)).
-/
import proofs.«123208_j60842506715779_2_alg».proof.Proof.Gen.KernelIdeal.Skeleton
import proofs.«123208_j60842506715779_2_alg».proof.Proof.LibPlainDot
import Idealize.ShloMosaic.Lib.ValueIdx
import Idealize.ShloMosaic.Lib.Pipeline.Value
import Idealize.ShloMosaic.PureOps.Ideal.Laws

noncomputable section

namespace Cert.Tile

open Idealize.ShloMosaic Idealize.ShloMosaic.ValueIdx Cert.KernelIdeal Cert.KernelIdeal.Gen

/-- The body's matrix product contracts the left block's columns with the right block's rows. -/
theorem record_plain :
    dot_S1024x1024_S1024x1024_S1024x1024_1_0_0_1_n_n = DotDims.plain 1024 1024 1024 := rfl

/-- The tile a run starts from is zero everywhere. -/
theorem zero_tile_apply (y : S1024x1024.Idx) : k0_pay1 (F := Ideal) y = 0 := by
  unfold k0_pay1
  exact Ideal.ofBits_zero_f32

/-- One accumulation step at an index: the tile's entry plus the blocks' product there. -/
theorem step_apply (acc x0 x1 : Vec Ideal S1024x1024 .f32) (y : S1024x1024.Idx) :
    k0_pay2 acc x0 x1 y = acc y + ∑ k : Fin 1024, x0 (ix2 (y 0) k) * x1 (ix2 k (y 1)) := by
  unfold k0_pay2
  rw [addf_apply, shapeCast_self, record_plain]
  exact congrArg (fun z => acc y + z) (LibPlainDot.matmul_zero_apply 1024 1024 1024 (some .fp32) x0 x1 y)

end Cert.Tile

end
-- ==== Proof.Blocks.lean ====
/-
  The input blocks of a grid point, read at an index of the whole matrices.

  The grid has 4 × 4 × 4 points; point `t = 16·i + 4·j + k` works on row block `i`, column block `j` of the result and
  on contraction block `k`. There the left window holds rows `1024·i …` and columns `1024·k …` of the left matrix, and the
  right window rows `1024·k …` and columns `1024·j …` of the right matrix: entry `(r, s)` of a block is the matrix entry
  at (block row · 1024 + r, block column · 1024 + s).
-/
import proofs.«123208_j60842506715779_2_alg».proof.Proof.Gen.KernelIdeal.Frame
import Idealize.ShloMosaic.Lib.ValueIdx
import Idealize.ShloMosaic.Lib.Pipeline.Value

noncomputable section

namespace Cert.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- Which blocks point `t = 16·i + 4·j + k` reads: the left window block `(i, k)`, the right window block `(k, j)`. -/
theorem block_indices : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4 :=
  (by decide +kernel : ∀ t : Fin grid0.N, _)

/-- The left block at point `t`, at `y`, is the left matrix at row `1024·(t / 16) + y₀`, column `1024·(t % 4) + y₁`. -/
theorem left_block_apply (c : Dev nD) (t : Fin cfg0.N) (y : S1024x1024.Idx) (j : S4096x4096.Idx)
    (h0 : (j 0).val = t.val / 16 * 1024 + (y 0).val) (h1 : (j 1).val = t.val % 4 * 1024 + (y 1).val) :
    (iblk m c 0 t : Vec F S1024x1024 .f32) y = m ((c : Thread nD τ).loc main_arg0) j := by
  obtain ⟨e0, e1, -, -⟩ := block_indices t
  unfold iblk
  rw [View.read_apply]
  show V m c main_arg0 _ = _
  unfold V
  congr 1
  funext a
  apply Fin.ext
  match a with
  | ⟨0, _⟩ => show win0_0.index t 0 * 1024 + 1 * (y 0).val = (j 0).val; rw [e0, h0]; omega
  | ⟨1, _⟩ => show win0_0.index t 1 * 1024 + 1 * (y 1).val = (j 1).val; rw [e1, h1]; omega

/-- The right block at point `t`, at `y`, is the right matrix at row `1024·(t % 4) + y₀`, column `1024·(t / 4 % 4) + y₁`. -/
theorem right_block_apply (c : Dev nD) (t : Fin cfg0.N) (y : S1024x1024.Idx) (j : S4096x4096.Idx)
    (h0 : (j 0).val = t.val % 4 * 1024 + (y 0).val) (h1 : (j 1).val = t.val / 4 % 4 * 1024 + (y 1).val) :
    (iblk m c 1 t : Vec F S1024x1024 .f32) y = m ((c : Thread nD τ).loc main_arg1) j := by
  obtain ⟨-, -, e0, e1⟩ := block_indices t
  unfold iblk
  rw [View.read_apply]
  show V m c main_arg1 _ = _
  unfold V
  congr 1
  funext a
  apply Fin.ext
  match a with
  | ⟨0, _⟩ => show win0_1.index t 0 * 1024 + 1 * (y 0).val = (j 0).val; rw [e0, h0]; omega
  | ⟨1, _⟩ => show win0_1.index t 1 * 1024 + 1 * (y 1).val = (j 1).val; rw [e1, h1]; omega

end Cert.Blocks

end
-- ==== Proof.LibBlockSum.lean ====
/-
  A finite sum cut into consecutive blocks of one length.

  A sum over the first `a * b` naturals is the sum, over the `a` blocks in order, of each block's `b` terms: the term
  at position `j` of block `s` sits at `s * b + j`. Only associativity and commutativity of the addition are used, so
  the regrouping holds in any commutative monoid — in particular on the extended reals, infinities included. The second
  form reads the whole sum and every block's sum over `Fin` index types, as a contraction over `a * b` positions cut
  into `a` contractions over `b` positions meets it.
-/
import Mathlib.Algebra.BigOperators.Fin
import Mathlib.Data.Fintype.BigOperators

namespace Cert.LibBlockSum

open Finset

variable {β : Type*} [AddCommMonoid β]

/-- The sum of `g` over the naturals below `a * b`, block by block. -/
theorem sum_range_mul (g : ℕ → β) (a b : ℕ) :
    ∑ n ∈ range (a * b), g n = ∑ s ∈ range a, ∑ j ∈ range b, g (s * b + j) := by
  induction a with
  | zero => simp
  | succ a ih => rw [Nat.succ_mul, sum_range_add, ih, sum_range_succ]

/-- The same regrouping over `Fin` index types: a sum over `n = a * b` positions is the sum over the `a` blocks of each
    block's sum over its `b` positions. -/
theorem sum_fin_blocks (g : ℕ → β) (a b n : ℕ) (hn : n = a * b) :
    ∑ k : Fin n, g k.val = ∑ s ∈ range a, ∑ j : Fin b, g (s * b + j.val) := by
  subst hn
  rw [Fin.sum_univ_eq_sum_range g (a * b), sum_range_mul]
  exact sum_congr rfl fun s _ => (Fin.sum_univ_eq_sum_range (fun j => g (s * b + j)) b).symm

end Cert.LibBlockSum
-- ==== Proof.Fold.lean ====
/-
  The result matrix after the run, entry by entry: the product of the two whole matrices.

  The result's 4 × 4 tiles are each worked on by a run of four consecutive grid points, one per block of the contraction
  axis. The run starts its tile from zero and each of its four points adds the product of that point's two input blocks,
  so after the run the tile's entry is zero plus the four block products there. For the entry at row `p`, column `q` of
  the whole result, the `s`-th block product is the sum of `A (p, 1024·s + k) · B (1024·s + k, q)` over the 1024
  positions `k` of the block, and the four blocks in order make up the whole contraction axis: the entry is the sum of
  `A (p, k') · B (k', q)` over all 4096 positions. Only associativity and commutativity of the extended reals' addition,
  and `0 + x = x`, are used; no entry need be finite.
-/
import proofs.«123208_j60842506715779_2_alg».proof.Proof.Gen.KernelIdeal.Value
import proofs.«123208_j60842506715779_2_alg».proof.Proof.Tile
import proofs.«123208_j60842506715779_2_alg».proof.Proof.Blocks
import proofs.«123208_j60842506715779_2_alg».proof.Proof.LibBlockSum

noncomputable section

namespace Cert.Fold

open Idealize.ShloMosaic Idealize.ShloMosaic.TcCoe Idealize.SL.Sem Idealize.ShloMosaic.ValueIdx
open Cert.KernelIdeal Cert.KernelIdeal.Gen Cert.KernelIdeal.Value

variable (m : (ℓ : Loc nD τ sig) → Buf (Elt Ideal) ℓ)

/-- The left matrix `A` as core `c` holds it at launch. -/
def lhs (c : Dev nD) : FVec Ideal S4096x4096 .f32 := m ((c : Thread nD τ).loc main_arg0)
/-- The right matrix `B`. -/
def rhs (c : Dev nD) : FVec Ideal S4096x4096 .f32 := m ((c : Thread nD τ).loc main_arg1)
/-- The block of `A` that grid point `n` works on, -/
def leftBlock (c : Dev nD) (n : ℕ) (h : n < cfg0.N) : FVec Ideal S1024x1024 .f32 := iblk m c 0 ⟨n, h⟩
/-- and its block of `B`. -/
def rightBlock (c : Dev nD) (n : ℕ) (h : n < cfg0.N) : FVec Ideal S1024x1024 .f32 := iblk m c 1 ⟨n, h⟩
/-- The result matrix as the run leaves it. -/
def result (c : Dev nD) : FVec Ideal S4096x4096 .f32 := G2 m c

/-- What grid point `n` adds to its tile at tile index `y`: the product of the point's left and right blocks there
    (zero for a number past the grid, which no run reaches). -/
def addend (c : Dev nD) (n : ℕ) (y : S1024x1024.Idx) : EReal :=
  if h : n < cfg0.N then
    ∑ k : Fin 1024, leftBlock m c n h (ix2 (y 0) k) * rightBlock m c n h (ix2 k (y 1))
  else 0

/-- A run of four points from `b` leaves in its tile the sum of the four points' addends. -/
theorem run_fold (c : Dev nD) (b : ℕ) (h : b + 3 < cfg0.N) (y : S1024x1024.Idx) :
    (Pipeline.accAt (reset2 m c) (step2 m c) b 3 h : FVec Ideal S1024x1024 .f32) y
      = ∑ s ∈ Finset.range 4, addend m c (b + s) y := by
  have e := Pipeline.accAt_add_apply (ι := S1024x1024.Idx) (β := EReal) (reset2 m c) (step2 m c) (fun _ => 0)
    (addend m c) b 3
    (fun hb i => by
      unfold reset2 addend
      rw [dif_pos hb]
      exact (Tile.step_apply (k0_pay1 (F := Ideal)) (leftBlock m c b hb) (rightBlock m c b hb) i).trans
        (congrArg (fun z : EReal => z + _) (Tile.zero_tile_apply i)))
    (fun n hn acc i _ _ => by
      unfold step2 addend
      rw [dif_pos hn]
      exact Tile.step_apply acc (leftBlock m c n hn) (rightBlock m c n hn) i)
    3 le_rfl h y
  exact e.trans (zero_add _)

/-- The result array the run leaves, at row `i 0` and column `i 1`: the whole contraction. -/
theorem result_apply (c : Dev nD) (i : S4096x4096.Idx) :
    result m c i = ∑ k : Fin 4096, lhs m c (ix2 (i 0) k) * rhs m c (ix2 k (i 1)) := by
  have hi0 : (i 0).val < 4096 := (i 0).isLt
  have hi1 : (i 1).val < 4096 := (i 1).isLt
  have hN : cfg0.N = 64 := N_0
  have hr : run2Of i = 4 * ((i 0).val / 1024) + (i 1).val / 1024 := by
    show 4 * ((i 0).val / 1024 - 0) + 1 * ((i 1).val / 1024 - 0) = _
    omega
  unfold result G2
  rw [dif_pos (by rw [hr, hN]; omega)]
  refine (run_fold m c _ _ _).trans ?_
  -- the whole contraction, with its terms numbered by the naturals below 4096
  let g : ℕ → EReal := fun n =>
    if h : n < 4096 then lhs m c (ix2 (i 0) ⟨n, h⟩) * rhs m c (ix2 ⟨n, h⟩ (i 1)) else 0
  have hg : ∀ (n : ℕ) (h : n < 4096), g n = lhs m c (ix2 (i 0) ⟨n, h⟩) * rhs m c (ix2 ⟨n, h⟩ (i 1)) :=
    fun n h => dif_pos h
  have hwhole : ∑ k : Fin 4096, lhs m c (ix2 (i 0) k) * rhs m c (ix2 k (i 1)) = ∑ k : Fin 4096, g k.val :=
    Finset.sum_congr rfl fun k _ => (hg k.val k.isLt).symm
  rw [hwhole, LibBlockSum.sum_fin_blocks g 4 1024 4096 rfl]
  -- block by block: the run's point number `s` holds contraction block `s`
  refine Finset.sum_congr rfl fun s hs => ?_
  have hs4 : s < 4 := Finset.mem_range.mp hs
  have ht : 4 * run2Of i + s < cfg0.N := by rw [hr, hN]; omega
  unfold addend
  rw [dif_pos ht]
  refine Finset.sum_congr rfl fun k _ => ?_
  have hk : s * 1024 + k.val < 4096 := by have := k.isLt; omega
  rw [hg _ hk]
  have hl : leftBlock m c (4 * run2Of i + s) ht (ix2 (loc2Of i 0) k) = lhs m c (ix2 (i 0) ⟨s * 1024 + k.val, hk⟩) :=
    Blocks.left_block_apply m c ⟨4 * run2Of i + s, ht⟩ (ix2 (loc2Of i 0) k) (ix2 (i 0) ⟨s * 1024 + k.val, hk⟩)
      (by show (i 0).val = (4 * run2Of i + s) / 16 * 1024 + (i 0).val % 1024; omega)
      (by show s * 1024 + k.val = (4 * run2Of i + s) % 4 * 1024 + k.val; omega)
  have hrt : rightBlock m c (4 * run2Of i + s) ht (ix2 k (loc2Of i 1)) = rhs m c (ix2 ⟨s * 1024 + k.val, hk⟩ (i 1)) :=
    Blocks.right_block_apply m c ⟨4 * run2Of i + s, ht⟩ (ix2 k (loc2Of i 1)) (ix2 ⟨s * 1024 + k.val, hk⟩ (i 1))
      (by show s * 1024 + k.val = (4 * run2Of i + s) % 4 * 1024 + k.val; omega)
      (by show (i 1).val = (4 * run2Of i + s) / 4 % 4 * 1024 + (i 1).val % 1024; omega)
  rw [hl, hrt]

end Cert.Fold

end
-- ==== Proof.Agree.lean ====
/-
  The reference's single matrix product and the kernel's tiled one are the same matrix.

  The reference contracts the whole 4096-long axis at once: its entry at row `p`, column `q` is the sum over all 4096
  positions `k` of `A (p, k) · B (k, q)`. The kernel's result array holds exactly that sum at every entry (the four
  1024-long blocks of the contraction, added in order onto a zero tile), so the two arrays agree index by index.
-/
import proofs.«123208_j60842506715779_2_alg».proof.Proof.Gen.ReferenceIdeal.Run
import proofs.«123208_j60842506715779_2_alg».proof.Proof.Fold
import proofs.«123208_j60842506715779_2_alg».proof.Proof.LibPlainDot

noncomputable section

namespace Cert.Agree

open Idealize.ShloMosaic Idealize.ShloMosaic.TcCoe Idealize.SL.Sem Idealize.ShloMosaic.ValueIdx

/-- The reference's product contracts the left matrix's columns with the right matrix's rows. -/
theorem record_plain :
    Cert.ReferenceIdeal.dot_S4096x4096_S4096x4096_S4096x4096_1_0_0_1_n_n = DotDims.plain 4096 4096 4096 := rfl

/-- The reference's result at an index: the whole contraction. -/
theorem reference_apply (A B : FVec Ideal ⟨2, ![4096, 4096]⟩ .f32) (i : (⟨2, ![4096, 4096]⟩ : Shape).Idx) :
    Host.dotGeneral (F := Ideal) Cert.ReferenceIdeal.dot_S4096x4096_S4096x4096_S4096x4096_1_0_0_1_n_n none A B i
      = ∑ k : Fin 4096, A (ix2 (i 0) k) * B (ix2 k (i 1)) := by
  rw [record_plain]
  exact LibPlainDot.dotGeneral_apply 4096 4096 4096 none .single A B i

/-- On the same two matrices the reference's product is the array the kernel's run leaves. -/
theorem reference_eq_kernel
    (m : (ℓ : Loc Cert.KernelIdeal.nD Cert.KernelIdeal.τ Cert.KernelIdeal.sig) → Buf (Elt Ideal) ℓ)
    (c : Dev Cert.KernelIdeal.nD) :
    Host.dotGeneral (F := Ideal) Cert.ReferenceIdeal.dot_S4096x4096_S4096x4096_S4096x4096_1_0_0_1_n_n none
        (Cert.Fold.lhs m c) (Cert.Fold.rhs m c)
      = Cert.Fold.result m c := by
  funext i
  exact (reference_apply _ _ i).trans (Cert.Fold.result_apply m c i).symm

end Cert.Agree

end
-- ==== Proof.lean ====
/- The proof of `Cert.Claim`: a 4096 × 4096 matrix product computed tile by tile equals the product computed at once.

   The kernel walks a 4 × 4 × 4 grid. Each 1024 × 1024 tile of the result is owned by a run of four consecutive grid
   points, one per 1024-long block of the contraction axis: the first point of the run zeroes the tile, every point adds
   the product of its block of the left matrix with its block of the right matrix, and the last point writes the tile
   back. The reference is one product over the whole contraction axis. On the extended reals the tile's entry is
   `0 + (Σ over block 0) + (Σ over block 1) + (Σ over block 2) + (Σ over block 3)` of the terms `A (p, k) · B (k, q)`, and
   the four blocks in order are the whole axis, so the entry is the reference's `Σ over all k`. Only `0 + x = x` and the
   associativity and commutativity of addition are used, which hold with infinite entries too: the finiteness of the
   inputs is never needed.

   Tile.lean reads one point's arithmetic at an index, Blocks.lean reads a point's input blocks as entries of the whole
   matrices, Fold.lean adds the four points of a run and re-indexes the blocks to the whole axis (LibBlockSum.lean),
   Agree.lean sets the reference's product (LibPlainDot.lean) beside it. The three frames come from the programs' runs;
   the idealization rewrote nothing, so `preserves` is trivial. -/
import proofs.«123208_j60842506715779_2_alg».proof.Defs
import proofs.«123208_j60842506715779_2_alg».proof.Proof.Gen.Kernel.Frame
import proofs.«123208_j60842506715779_2_alg».proof.Proof.Gen.KernelIdeal.Value
import proofs.«123208_j60842506715779_2_alg».proof.Proof.Gen.Pre_finite_inputs
import proofs.«123208_j60842506715779_2_alg».proof.Proof.Gen.ReferenceIdeal.Run
import proofs.«123208_j60842506715779_2_alg».proof.Proof.Agree
import Idealize.ShloMosaic.Adequacy
import Idealize.ShloMosaic.Init

noncomputable section

namespace Cert.Proof

open Idealize.ShloMosaic Idealize.SL.Sem

/-- The idealized kernel runs to the end and leaves its two argument matrices as they were. -/
theorem frame_KernelIdeal : frame_KernelIdeal := fun m ρ _ =>
  (θ_run Cert.KernelIdeal.defs _ _).mono (fun _ h c => (h c).2) (Cert.KernelIdeal.Value.run (F := Ideal) m ρ)

/-- So does the idealized reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the two matrices both programs end with the same result matrix: the kernel's tiled
    sums are the reference's whole sums, entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.Agree.reference_eq_kernel m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
